-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S8192x512 : Shape := ⟨2, ![8192, 512]⟩
abbrev S8192x8192 : Shape := ⟨2, ![8192, 8192]⟩
abbrev S1024x512 : Shape := ⟨2, ![1024, 512]⟩
abbrev S1024x1024 : Shape := ⟨2, ![1024, 1024]⟩
abbrev S1024 : Shape := ⟨1, ![1024]⟩
abbrev S1024x1 : Shape := ⟨2, ![1024, 1]⟩
abbrev S512x1024 : Shape := ⟨2, ![512, 1024]⟩
abbrev S1x1024 : Shape := ⟨2, ![1, 1024]⟩

abbrev nBuf : Space → Nat
  | .hbm => 2
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1024, .f32⟩
  | .local _ .vmem, ⟨5, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  transposes_S1024x512_p1_0_S512x1024 : S1024x512.Transposes [1, 0] S512x1024
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x512 : Shape := ⟨2, ![8192, 512]⟩
abbrev S_ : Shape := ⟨0, ![]⟩
abbrev S8192 : Shape := ⟨1, ![8192]⟩
abbrev S512x8192 : Shape := ⟨2, ![512, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 19
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S_, .f32⟩
  | .hbm, ⟨3, _⟩ => ⟨S8192, .f32⟩
  | .hbm, ⟨4, _⟩ => ⟨S512x8192, .f32⟩
  | .hbm, ⟨5, _⟩ => ⟨S8192x8192, .f32⟩
  | .hbm, ⟨6, _⟩ => ⟨S8192x1, .f32⟩
  | .hbm, ⟨7, _⟩ => ⟨S1x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  transposes_S8192x512_S512x8192_1_0 : S8192x512.Transposes [1, 0] S512x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.LibSharedFrame.lean ====
/-
  The run of a program that is one pipelined kernel region whose windows may read ONE array through SEVERAL windows.

  A pipelined kernel is handed each operand array through a window; when the same array is passed twice (the rows of a
  matrix paired with themselves), two input windows stage blocks of one buffer. The launch then cannot hold that array
  once per window at the full share: the full share of the buffer is divided among the windows on it, each window
  reading through its part (reading needs only a positive share; nothing writes an input). How the share is divided is
  the one thing such a kernel's proof says beyond what a kernel on distinct arrays says (`hsplit`).

  `run_shared` states, for such a program whose kernel has no semaphore, scratch or transfer of its own and carries
  nothing from grid point to grid point but what the staging buffers hold: from any memory with every semaphore
  counter at zero, every weakly fair execution of the program terminates without fault, and at the end every
  window's array holds what the write-backs of the proof data leave in it (`Dat.arrAt w N`: an input array its
  entry contents, an output array those overwritten block by block by what the body left). General in the program,
  the value type, the grid and the windows.
-/
import Idealize.ShloMosaic.Lib.Pipeline.Frame

noncomputable section

namespace Cert.SharedFrame

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- The run of a one-region program whose windows may share arrays: the staging cells pairwise distinct (`hinj`), the
    windows laid out as the launch needs but for the arrays' distinctness (`hw`), no block empty, arrays and staging
    memrefs whole buffers; the body obligation at every point (`hbody`), nothing owed (`howed`); the program up to the
    region (`hmain`) with the buffers' contents there (`V`); the buffers behind the windows' arrays, each whole at the
    full share, dealt to the windows at the proof data's shares (`hsplit`); and the invariant between points nothing but
    the core's scoped buffers that are no staging buffer, at any contents (`hΦ`). Every window's array ends at
    `Dat.arrAt w N`. -/
theorem run_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hΦ : ∀ c t, (dats p c).Φ t = scopedRest (Ix := Unit) (Name := ℕ) (U := UR sig nD τ) (Lvl := ℕ) (Val := Val) (cfgs p).spec c) :
    θ_run (Pipeline.defs (fun q => Cfg.toPCfg (Val := Val) (cfgs q)) defs₀) (onTc main) (s₀ m g)
      (fun r => ∀ (c : Dev nD) (w : Fin (cfgs p).W),
        r.2.mem (((cfgs p).spec w).arr.view.loc (c.tc : Thread nD τ)) = (dats p c).arrAt w (cfgs p).N) :=
  θ_run_region_noSem_shared cfgs dats () hinj p hw emb₁ defs₀ 𝒱₀ m g main hbody hne harr hstage howed
    (initOf (cells cfgs hinj) (launchToks cfgs hinj)) .rfl V hmain hsplit
    (fun _ => (BI.emp : sProp 𝕄)) (fun _ => (BI.emp : sProp 𝕄))
    (fun c => unscopedRest (Ix := Unit) (Name := ℕ) (U := UR sig nD τ) (Lvl := ℕ) (cfgs p).spec c (V c))
    (fun c => by
      iintro H
      isplitr
      · iempintro
      · iexact H)
    (fun c => by
      rw [hΦ]
      iintro ⟨-, H⟩
      iexact H)
    (fun c => by
      rw [hΦ]
      iintro H
      isplitr
      · iempintro
      · iexact H)
    (fun _ _ => True)
    (fun c s' => by
      iintro ⟨-, -, HSI⟩
      imodintro
      isplitr
      · ipureintro; trivial
      · iexact HSI)
    (fun s h c w => (h c).1 w)

/-- info: 'Cert.SharedFrame.run_shared' depends on axioms: [propext, Classical.choice, Quot.sound] -/
#guard_msgs in #print axioms run_shared

end Cert.SharedFrame

end
-- ==== Proof.TilesWord.lean ====
/-
  The tiled kernel at the word level as a pipeline: the same account as for its reading on the extended reals.

  The grid is 8 × 8; at point `t = (i, j)` the first input window stages rows `1024 i … 1024 i + 1023` of the argument
  array, the second input window rows `1024 j … 1024 j + 1023` of the same array, and the output window tile `(i, j)` of
  the result. The body loads both staged blocks whole and stores one pure term of them (`Gen.k0_pay1`) over the whole
  output block, so after the body the output's staging buffer holds that term (`tile`) and each input's staging buffer
  its block, as before. Both input windows read one buffer, so the launch deals that buffer's full share in two halves
  (`deal`); the result's buffer goes whole to the output window. Hence every weakly fair execution terminates without
  fault and the argument array ends as it began (`frame`). Nothing here depends on what the float operations compute:
  every statement is for any float instance `F`, and the claim takes it at the bit-exact one.
-/
import proofs.«109813_j15015205667290_1_alg».proof.Proof.Gen.Kernel.Launch
import proofs.«109813_j15015205667290_1_alg».proof.Proof.Gen.Kernel.Skeleton
import proofs.«109813_j15015205667290_1_alg».proof.Proof.Gen.Kernel.Points
import proofs.«109813_j15015205667290_1_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The buffers as the region finds them: as launched (the program is the region alone). -/
abbrev V (c : Dev nD) (b : Ref sig .tc) : Buf (Elt F) ((c : Thread nD τ).loc b) := m ((c : Thread nD τ).loc b)

theorem hmain (𝒱₀ : Variants) :
    Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The blocks -/

/-- Window `w`'s block of its array at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole of an input block, and the whole of the output block: the rectangles the body loads and stores through. -/
abbrev rIn : Rect S1024x512 := Rect.unit (s := S1024x512) ![0, 0] S1024x512.size inb_S1024x512_S1024x512_0_0
abbrev rOut : Rect S1024x1024 := Rect.unit (s := S1024x1024) ![0, 0] S1024x1024.size inb_S1024x1024_S1024x1024_0_0

/-- What the body leaves in the output's staging buffer, from the two input blocks: its one store, over the whole block. -/
def tile (x0 x1 : Vec F S1024x512 .f32) : Vec F S1024x1024 .f32 :=
  View.canon [⟨rOut, k0_pay1 (View.ld x0 rIn) (View.ld x1 rIn)⟩]

/-- The one store covers the output block. -/
theorem tile_cover (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

/-! ## The body -/

set_option maxHeartbeats 1000000 in
/-- The body on whole staging memrefs, the inputs' reading `x0`, `x1` and the output's anything, runs to the
    continuation holding the inputs' as they were and the output's at `tile x0 x1`. -/
theorem sound_kernel (c : Dev nD) (E : Set ℕ) (i : grid0.Coords)
    (arg2 : Memref sig .tc .vmem S1024x512 .f32) (harg2 : arg2.IsWhole)
    (arg3 : Memref sig .tc .vmem S1024x512 .f32) (harg3 : arg3.IsWhole)
    (arg4 : Memref sig .tc .vmem S1024x1024 .f32) (harg4 : arg4.IsWhole)
    (x0 : Vec F S1024x512 .f32) (x1 : Vec F S1024x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (tile x0 x1)) -∗ K ⟨⟩))
      ⊢ wp frame (wpE (defs₀ (F := F)) Variants.none c none) E (cc0__eucl_kernel i arg2 harg2 arg3 harg3 arg4 harg4) K := by
  simp only [cc0__eucl_kernel_eq_skeleton]; unfold cc0__eucl_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_cover _)

/-! ## The proof data -/

/-- The pipeline's proof data on core `c`: the arrays as the region finds them; after the body at point `t` each
    input's buffer at its block and the output's at `tile` of the two input blocks; between points nothing but the
    core's other scoped buffers; nothing owed; the argument buffer's share dealt in halves to the two input windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tile (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = tile (iblk m c 0 t) (iblk m c 1 t) := by dsimp only [dats]

/-- Each input's current staging buffer holds its block at every point, fetched there or not: a point that does not
    fetch has the block index of the point before, whose block the body left in place. -/
theorem before_0 (c : Dev nD) (t : Fin cfg0.N) (d) : (dats m 0 c).before 0 t d = iblk m c 0 t :=
  ((dats m 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The argument buffer's share dealt to the two input windows -/

/-- The two buffers behind the three windows' arrays: the argument and the result. -/
theorem arrs_eq : (Finset.univ.image (Pipeline.arrRef spec0)) = [main_arg0, main_v0].toFinset := by decide

theorem arrBufs_eq (c : Dev nD) :
    (Pipeline.arrBufs (Ix := Unit) (Name := ℕ) (U := UR sig nD τ) (Lvl := ℕ) spec0 c (V m c) : sProp 𝕄)
      = iprop(((c : Thread nD τ).loc main_arg0 ↦{fullShare} V m c main_arg0) ∗ ((c : Thread nD τ).loc main_v0 ↦{fullShare} V m c main_v0)) :=
  bigSep_eq_bigSepL_of_eq [main_arg0, main_v0] arrs_eq (by decide) _

/-- The argument buffer held whole is held once at the left half share and once at the right half share, at the same
    contents: one half for each input window; the result buffer goes whole to the output window. -/
theorem deal (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0, (arr_whole0 0).set_eq_univ, (arr_whole0 2).set_eq_univ]
  iintro ⟨Ha, Hv⟩
  ihave Hs := ((pointsTo_share (PosShare.mem_left_op_right fullShare)).1) $$ Ha
  icases Hs with ⟨Hl, Hr⟩
  isplitl [Hl]
  · iexact Hl
  isplitl [Hr]
  · iexact Hr
  iexact Hv

/-! ## The run -/

set_option backward.isDefEq.respectTransparency.types false in
/-- From any memory with zero counters every weakly fair execution of the program terminates without fault, and each
    window's array ends as the proof data's write-backs leave it. -/
theorem run_tiles : θ_run defs (onTc (τ := τ) (main (F := F))) (s₀ m ρ)
    (fun r => ∀ (c : Dev nD) (w : Fin cfg0.W),
      r.2.mem ((cfg0.spec w).arr.view.loc (c.tc : Thread nD τ)) = (dats m 0 c).arrAt w cfg0.N) :=
  Cert.SharedFrame.run_shared cfgs (dats m) (0 : Fin 1) cellOf_inj winFacts₀0 block_pos0 arr_whole0 stage_whole0
    defs₀ Variants.none m ρ main (fun c => (body_obligation m c).loose) (fun _ _ => rfl) (V m) (hmain m Variants.none)
    (deal m) (fun _ _ => rfl)

/-- The argument array ends as it began (an input window's array is never written back), and the result array ends
    as the 64 write-backs leave it. -/
theorem run_named : θ_run defs (onTc (τ := τ) (main (F := F))) ⟨m, fun _ => 0, ρ⟩ (fun r => ∀ c : Dev nD,
      r.2.mem ((c.tc : Thread nD τ).loc main_v0) = (dats m 0 c).arrAt 2 cfg0.N
      ∧ r.2.mem ((c.tc : Thread nD τ).loc main_arg0) = m ((c.tc : Thread nD τ).loc main_arg0)) :=
  (θ_run defs _ _).mono (fun _ h c => ⟨h c 2,
      (h c 0).trans (((dats m 0 c).arrAt_in 0 rfl _).trans (A_eq m c 0))⟩) (run_tiles m ρ)

/-- The frame: the program runs to the end, faults nowhere, and leaves its argument array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_named m ρ)

/-- info: 'Cert.Kernel.Tiles.frame' depends on axioms: [propext, Classical.choice, Quot.sound] -/
#guard_msgs in #print axioms frame

end Cert.Kernel.Tiles

end
-- ==== Proof.TilesIdeal.lean ====
/-
  The tiled kernel as a pipeline: what each grid point's body leaves, and the run of the whole program.

  The grid is 8 × 8; at point `t = (i, j)` the first input window stages rows `1024 i … 1024 i + 1023` of the argument
  array, the second input window rows `1024 j … 1024 j + 1023` of THE SAME array, and the output window tile `(i, j)`
  of the result. The body loads both staged blocks whole, computes one 1024 × 1024 tile from them (the body's one pure
  term, `Gen.k0_pay1`), and stores it over the whole output block; it also loads the output block before storing, and
  uses nothing of what it loaded there. So after the body the output's staging buffer holds that term of the two input
  blocks (`tile`), and each input's staging buffer holds its block, as before.

  Both input windows read one buffer, so the launch deals that buffer's full share in two halves, the left half to the
  first window and the right half to the second (`deal`); the result's buffer goes whole to the output window. With
  that, the run of a one-region pipeline whose windows share an array gives: every weakly fair execution of the program
  terminates without fault, the argument array ends as it began (`frame`), and the result array ends as the
  write-backs of the 64 tiles leave it (`run_tiles`, `run_named`).

  Everything is stated for any float instance `F`: the word-level program and its idealization run the same way.
-/
import proofs.«109813_j15015205667290_1_alg».proof.Proof.Gen.KernelIdeal.Launch
import proofs.«109813_j15015205667290_1_alg».proof.Proof.Gen.KernelIdeal.Skeleton
import proofs.«109813_j15015205667290_1_alg».proof.Proof.Gen.KernelIdeal.Points
import proofs.«109813_j15015205667290_1_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The buffers as the region finds them: as launched (the program is the region alone). -/
abbrev V (c : Dev nD) (b : Ref sig .tc) : Buf (Elt F) ((c : Thread nD τ).loc b) := m ((c : Thread nD τ).loc b)

theorem hmain (𝒱₀ : Variants) :
    Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The blocks -/

/-- Window `w`'s block of its array at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole of an input block, and the whole of the output block: the rectangles the body loads and stores through. -/
abbrev rIn : Rect S1024x512 := Rect.unit (s := S1024x512) ![0, 0] S1024x512.size inb_S1024x512_S1024x512_0_0
abbrev rOut : Rect S1024x1024 := Rect.unit (s := S1024x1024) ![0, 0] S1024x1024.size inb_S1024x1024_S1024x1024_0_0

/-- What the body leaves in the output's staging buffer, from the two input blocks: its one store, over the whole block. -/
def tile (x0 x1 : Vec F S1024x512 .f32) : Vec F S1024x1024 .f32 :=
  View.canon [⟨rOut, k0_pay1 (View.ld x0 rIn) (View.ld x1 rIn)⟩]

/-- The one store covers the output block. -/
theorem tile_cover (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

/-! ## The body -/

set_option maxHeartbeats 1000000 in
/-- The body on whole staging memrefs, the inputs' reading `x0`, `x1` and the output's anything, runs to the
    continuation holding the inputs' as they were and the output's at `tile x0 x1`. -/
theorem sound_kernel (c : Dev nD) (E : Set ℕ) (i : grid0.Coords)
    (arg2 : Memref sig .tc .vmem S1024x512 .f32) (harg2 : arg2.IsWhole)
    (arg3 : Memref sig .tc .vmem S1024x512 .f32) (harg3 : arg3.IsWhole)
    (arg4 : Memref sig .tc .vmem S1024x1024 .f32) (harg4 : arg4.IsWhole)
    (x0 : Vec F S1024x512 .f32) (x1 : Vec F S1024x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (tile x0 x1)) -∗ K ⟨⟩))
      ⊢ wp frame (wpE (defs₀ (F := F)) Variants.none c none) E (cc0__eucl_kernel i arg2 harg2 arg3 harg3 arg4 harg4) K := by
  simp only [cc0__eucl_kernel_eq_skeleton]; unfold cc0__eucl_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_cover _)

/-! ## The proof data -/

/-- The pipeline's proof data on core `c`: the arrays as the region finds them; after the body at point `t` each
    input's buffer at its block and the output's at `tile` of the two input blocks; between points nothing but the
    core's other scoped buffers; nothing owed; the argument buffer's share dealt in halves to the two input windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tile (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = tile (iblk m c 0 t) (iblk m c 1 t) := by dsimp only [dats]

/-- Each input's current staging buffer holds its block at every point, fetched there or not: a point that does not
    fetch has the block index of the point before, whose block the body left in place. -/
theorem before_0 (c : Dev nD) (t : Fin cfg0.N) (d) : (dats m 0 c).before 0 t d = iblk m c 0 t :=
  ((dats m 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The argument buffer's share dealt to the two input windows -/

/-- The two buffers behind the three windows' arrays: the argument and the result. -/
theorem arrs_eq : (Finset.univ.image (Pipeline.arrRef spec0)) = [main_arg0, main_v0].toFinset := by decide

theorem arrBufs_eq (c : Dev nD) :
    (Pipeline.arrBufs (Ix := Unit) (Name := ℕ) (U := UR sig nD τ) (Lvl := ℕ) spec0 c (V m c) : sProp 𝕄)
      = iprop(((c : Thread nD τ).loc main_arg0 ↦{fullShare} V m c main_arg0) ∗ ((c : Thread nD τ).loc main_v0 ↦{fullShare} V m c main_v0)) :=
  bigSep_eq_bigSepL_of_eq [main_arg0, main_v0] arrs_eq (by decide) _

/-- The argument buffer held whole is held once at the left half share and once at the right half share, at the same
    contents: one half for each input window; the result buffer goes whole to the output window. -/
theorem deal (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0, (arr_whole0 0).set_eq_univ, (arr_whole0 2).set_eq_univ]
  iintro ⟨Ha, Hv⟩
  ihave Hs := ((pointsTo_share (PosShare.mem_left_op_right fullShare)).1) $$ Ha
  icases Hs with ⟨Hl, Hr⟩
  isplitl [Hl]
  · iexact Hl
  isplitl [Hr]
  · iexact Hr
  iexact Hv

/-! ## The run -/

set_option backward.isDefEq.respectTransparency.types false in
/-- From any memory with zero counters every weakly fair execution of the program terminates without fault, and each
    window's array ends as the proof data's write-backs leave it. -/
theorem run_tiles : θ_run defs (onTc (τ := τ) (main (F := F))) (s₀ m ρ)
    (fun r => ∀ (c : Dev nD) (w : Fin cfg0.W),
      r.2.mem ((cfg0.spec w).arr.view.loc (c.tc : Thread nD τ)) = (dats m 0 c).arrAt w cfg0.N) :=
  Cert.SharedFrame.run_shared cfgs (dats m) (0 : Fin 1) cellOf_inj winFacts₀0 block_pos0 arr_whole0 stage_whole0
    defs₀ Variants.none m ρ main (fun c => (body_obligation m c).loose) (fun _ _ => rfl) (V m) (hmain m Variants.none)
    (deal m) (fun _ _ => rfl)

/-- The argument array ends as it began (an input window's array is never written back), and the result array ends
    as the 64 write-backs leave it. -/
theorem run_named : θ_run defs (onTc (τ := τ) (main (F := F))) ⟨m, fun _ => 0, ρ⟩ (fun r => ∀ c : Dev nD,
      r.2.mem ((c.tc : Thread nD τ).loc main_v0) = (dats m 0 c).arrAt 2 cfg0.N
      ∧ r.2.mem ((c.tc : Thread nD τ).loc main_arg0) = m ((c.tc : Thread nD τ).loc main_arg0)) :=
  (θ_run defs _ _).mono (fun _ h c => ⟨h c 2,
      (h c 0).trans (((dats m 0 c).arrAt_in 0 rfl _).trans (A_eq m c 0))⟩) (run_tiles m ρ)

/-- The frame: the program runs to the end, faults nowhere, and leaves its argument array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_named m ρ)

/-- info: 'Cert.KernelIdeal.Tiles.frame' depends on axioms: [propext, Classical.choice, Quot.sound] -/
#guard_msgs in #print axioms frame

end Cert.KernelIdeal.Tiles

end
-- ==== Proof.Spec.lean ====
/-
  The matrix of pairwise Euclidean distances between the rows of one array, on the extended reals.

  For an array `X` of 8192 rows of 512 entries, the squared norm of row `i` is `sqn X i = ∑ k, X(i,k)²`, the inner
  product of rows `i` and `j` is `gram X i j = ∑ k, X(i,k) · X(j,k)`, and the distance is read off the polarisation
  identity `‖a − b‖² = ‖a‖² + ‖b‖² − 2 a·b`, clamped at zero before the square root:

      entry X i j = √ max ((sqn X i + sqn X j) − 2 · gram X i j, 0).

  The two constants are kept as the binary32 words the programs print (`0x40000000` is 2, `0x00000000` is 0): both
  programs carry the same words, so their values are never needed. An entry depends on rows `i` and `j` of `X` only,
  which is what lets a tile of the matrix be computed from two blocks of rows.
-/
import Idealize.ShloMosaic.PureOps.Ideal
import Idealize.ShloMosaic.Lib.ValueIdx

noncomputable section

open scoped BigOperators

namespace Cert.PairDist

open Idealize.ShloMosaic Idealize.ShloMosaic.ValueIdx

/-- An array of `n` rows of `d` entries. -/
abbrev Rows (n d : ℕ) : Type := (⟨2, ![n, d]⟩ : Shape).Idx → EReal

/-- The squared norm of row `i`. -/
def sqn {n d : ℕ} (X : Rows n d) (i : Fin n) : EReal := ∑ k : Fin d, X (ix2 i k) * X (ix2 i k)

/-- The inner product of row `i` of `X` and row `j` of `Y`. -/
def gram {n n' d : ℕ} (X : Rows n d) (Y : Rows n' d) (i : Fin n) (j : Fin n') : EReal :=
  ∑ k : Fin d, X (ix2 i k) * Y (ix2 j k)

/-- The clamped square root of `(a + b) − 2 g`: the distance from two squared norms and an inner product. -/
def root (a b g : EReal) : EReal :=
  Ideal.sqrt (max ((a + b) - Ideal.ofBits .f32 0x40000000#32 * g) (Ideal.ofBits .f32 0x00000000#32))

/-- The distance between row `i` of `X` and row `j` of `Y`. -/
def entry {n n' d : ℕ} (X : Rows n d) (Y : Rows n' d) (i : Fin n) (j : Fin n') : EReal :=
  root (sqn X i) (sqn Y j) (gram X Y i j)

/-- The whole matrix of distances between the rows of `X`. -/
def dist {n d : ℕ} (X : Rows n d) : (⟨2, ![n, n]⟩ : Shape).Idx → EReal :=
  fun y => entry X X ⟨(y 0).val, idx2_lt0 y⟩ ⟨(y 1).val, idx2_lt1 y⟩

theorem dist_apply {n d : ℕ} (X : Rows n d) (i j : Fin n) : dist X (ix2 i j) = entry X X i j := rfl

/-- An entry depends only on the two rows it names: rows of `A`, `B` that are rows `i`, `j` of `X` give `X`'s entry. -/
theorem entry_rows {n a b d : ℕ} (X : Rows n d) (A : Rows a d) (B : Rows b d) (p : Fin a) (q : Fin b) (i j : Fin n)
    (hA : ∀ k, A (ix2 p k) = X (ix2 i k)) (hB : ∀ k, B (ix2 q k) = X (ix2 j k)) :
    entry A B p q = entry X X i j := by
  simp only [entry, sqn, gram, hA, hB]

end Cert.PairDist

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.BlockValue.lean ====
/-
  The kernel's arithmetic on two blocks of rows, read at one entry of the tile.

  From a block A of 1024 rows and a block B of 1024 rows (512 entries each) the body forms
      sqrt (max ((cA + rB) - 2 * (A * Bt)) 0),
  where cA is the column of row sums of A squared entry by entry (a sum along the second axis, cast to a
  column [1024,1] and broadcast along the rows), rB is the same column for B, transposed to a row [1,1024]
  and broadcast down the columns, Bt is B transposed, and A * Bt is the matrix product into a zero
  accumulator. At the entry (p, q): cA is the squared norm of row p of A, rB the squared norm of row q of B,
  and the product is the sum over k of A(p,k) * Bt(k,q) = A(p,k) * B(q,k), the inner product of the two rows.
  So the entry is the specification's distance between row p of A and row q of B, with the same two constant
  words.
-/
import proofs.«109813_j15015205667290_1_alg».proof.Proof.Gen.KernelIdeal.Skeleton
import proofs.«109813_j15015205667290_1_alg».proof.Proof.Spec
import proofs.«109813_j15015205667290_1_alg».proof.Proof.LibRowBlocks
import proofs.«109813_j15015205667290_1_alg».proof.Proof.LibDense
import Idealize.ShloMosaic.Lib.ValueLayout
import Idealize.ShloMosaic.Lib.Pipeline.Value
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx

/-- The column of row sums of the squared block: at (p, u) it is the squared norm of row p. -/
theorem sqcol_apply (a : Vec Ideal S1024x512 .f32) (p : Fin 1024) (u : Fin 1) :
    shapeCast S1024x1 (multiReduction (F := Ideal) .add [1] S1024 (mulf a a) 0x00000000#32
        reduces_S1024x512_S1024 (.inl rfl) rfl) shapeCasts_S1024_S1024x1 (ix2 p u)
      = Cert.PairDist.sqn a p :=
  (Cert.RowBlocks.shapeCast_col_apply _ shapeCasts_S1024_S1024x1 p u).trans
    ((Cert.RowBlocks.rowSum_apply (mulf a a) reduces_S1024x512_S1024 (.inl rfl) rfl p).trans rfl)

/-- The column broadcast along the rows: at (p, q) the squared norm of row p. -/
theorem colBcast_apply (a : Vec Ideal S1024x512 .f32) (p q : Fin 1024) :
    broadcastTo S1024x1024 (shapeCast S1024x1 (multiReduction (F := Ideal) .add [1] S1024 (mulf a a) 0x00000000#32
        reduces_S1024x512_S1024 (.inl rfl) rfl) shapeCasts_S1024_S1024x1) broadcasts_S1024x1_S1024x1024 (ix2 p q)
      = Cert.PairDist.sqn a p :=
  (Cert.RowBlocks.broadcastTo_col_apply _ broadcasts_S1024x1_S1024x1024 p q).trans (sqcol_apply a p 0)

/-- A column [1024,1] transposed to a row [1,1024]: at (u, q) the column at (q, 0). -/
theorem rowOfCol_apply {α : Type} (x : S1024x1.Idx → α) (u : Fin 1) (q : Fin 1024) :
    transpose S1x1024 [1, 0] x transposes_S1024x1_p1_0_S1x1024 (ix2 u q) = x (ix2 q (0 : Fin 1)) :=
  transpose_apply [1, 0] x transposes_S1024x1_p1_0_S1x1024 (ix2 u q) (ix2 q (0 : Fin 1)) (fun b => match b with
    | ⟨0, _⟩ => by
      have hu : u.val = 0 := by omega
      show (0 : ℕ) = u.val
      rw [hu]
    | ⟨1, _⟩ => rfl)

/-- The transposed column broadcast down the columns: at (p, q) the squared norm of row q. -/
theorem rowBcast_apply (b : Vec Ideal S1024x512 .f32) (p q : Fin 1024) :
    broadcastTo S1024x1024 (transpose S1x1024 [1, 0] (shapeCast S1024x1 (multiReduction (F := Ideal) .add [1] S1024
        (mulf b b) 0x00000000#32 reduces_S1024x512_S1024 (.inl rfl) rfl) shapeCasts_S1024_S1024x1)
        transposes_S1024x1_p1_0_S1x1024) broadcasts_S1x1024_S1024x1024 (ix2 p q)
      = Cert.PairDist.sqn b q :=
  (broadcastTo_1b_ab_apply _ broadcasts_S1x1024_S1024x1024 p q).trans
    ((rowOfCol_apply _ (0 : Fin 1) q).trans (sqcol_apply b q 0))

/-- The transposed block at (k, q) is the block at (q, k). -/
theorem blockT_apply {α : Type} (x : S1024x512.Idx → α) (k : Fin 512) (q : Fin 1024) :
    transpose S512x1024 [1, 0] x transposes_S1024x512_p1_0_S512x1024 (ix2 k q) = x (ix2 q k) :=
  transpose_apply [1, 0] x transposes_S1024x512_p1_0_S512x1024 (ix2 k q) (ix2 q k) (fun b => match b with
    | ⟨0, _⟩ => rfl
    | ⟨1, _⟩ => rfl)

/-- The product of the first block with the transposed second block, into a zero accumulator: at (p, q) the
    inner product of row p of the first and row q of the second. -/
theorem gramProd_apply (a b : Vec Ideal S1024x512 .f32) (p q : Fin 1024) :
    matmul (F := Ideal) (φ₁ := .f32) (φ₂ := .f32) dot_S1024x512_S512x1024_S1024x1024_1_0_0_1_n_n none a
        (transpose S512x1024 [1, 0] b transposes_S1024x512_p1_0_S512x1024)
        (constant S1024x1024 .f32 0x00000000#32) (ix2 p q)
      = Cert.PairDist.gram a b p q := by
  rw [Cert.Dense.matmul_zero_eq_mm dot_S1024x512_S512x1024_S1024x1024_1_0_0_1_n_n rfl rfl rfl rfl rfl rfl,
    Cert.Dense.mm_apply]
  exact Finset.sum_congr rfl fun k _ => congrArg (a (ix2 p k) * ·) (blockT_apply b k q)

/-- The body's value at the entry (p, q) of the tile is the distance between row p of the first block and
    row q of the second. -/
theorem tile_apply (a b : Vec Ideal Cert.KernelIdeal.S1024x512 .f32) (p q : Fin 1024) :
    Cert.KernelIdeal.Gen.k0_pay1 (F := Ideal) a b (ValueIdx.ix2 p q) = Cert.PairDist.entry a b p q := by
  have hA := colBcast_apply a p q
  have hB := rowBcast_apply b p q
  have hG := gramProd_apply a b p q
  unfold Gen.k0_pay1
  show Ideal.sqrt (max ((_ + _) - Ideal.ofBits .f32 0x40000000#32 * _) (Ideal.ofBits .f32 0x00000000#32)) = _
  rw [hA, hB, hG]
  rfl

end Cert.KernelIdeal.BlockValue

end
-- ==== Proof.Whole.lean ====
/-
  The tiles put together: the kernel's result array is the whole matrix of pairwise distances.

  Grid point `t = (i, j)` of the 8 × 8 grid stages rows `1024 i + p` of the argument array in its first input block,
  rows `1024 j + q` of the same array in its second, and writes back tile `(i, j)` of the result: the entries
  `(1024 i + p, 1024 j + q)`. The tile's entry `(p, q)` is the distance between row `p` of the first block and row
  `q` of the second, which are rows `1024 i + p` and `1024 j + q` of the argument; so what point `t` writes back is
  its block of ONE matrix, the distance matrix of the argument. Every entry `(r, s)` of the result lies in the tile
  `(r / 1024, s / 1024)`, which some point writes; hence after the 64 write-backs the result array is that matrix.
-/
import proofs.«109813_j15015205667290_1_alg».proof.Proof.TilesIdeal
import proofs.«109813_j15015205667290_1_alg».proof.Proof.BlockValue
import proofs.«109813_j15015205667290_1_alg».proof.Proof.Spec
import Idealize.ShloMosaic.Lib.Pipeline.Value

set_option maxRecDepth 16384

noncomputable section

namespace Cert.KernelIdeal.Whole

open Cert.KernelIdeal Cert.KernelIdeal.Gen Cert.KernelIdeal.Tiles
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem hz : (![0, 0] : Fin 2 → Nat) = fun _ => 0 := funext fun a => by fin_cases a <;> rfl

/-- The index maps over the grid: the first input's block row is the tile's row, the second input's block row is the
    tile's column, both inputs take all 512 columns, and the tile's coordinates are below 8. -/
theorem idx_facts : ∀ t : Fin cfg0.N,
    win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7 ∧ win0_2.index t (1 : Fin 2) ≤ 7 :=
  (by decide +kernel : ∀ t : Fin grid0.N, _)

/-- Every tile of the 8 × 8 arrangement is some point's. -/
theorem idx_onto : ∀ (q0 q1 : Fin 8), ∃ t : Fin cfg0.N, win0_2.index t = ![q0.val, q1.val] :=
  (by decide +kernel : ∀ (q0 q1 : Fin 8), ∃ t : Fin grid0.N, win0_2.index t = ![q0.val, q1.val])

/-- Two blocks that hold rows `1024 bi + p` and `1024 bj + q` of `X` give, at the tile's entry `y`, the distance
    matrix of `X` at the entry `z` with `z = (1024 bi + y₀, 1024 bj + y₁)`. -/
theorem tile_entry (X : Cert.PairDist.Rows 8192 512) (A B : Vec Ideal S1024x512 .f32) (bi bj : ℕ)
    (hA : ∀ (p : Fin 1024) (r : Fin 8192), r.val = bi * 1024 + p.val → ∀ k : Fin 512, A (ix2 p k) = X (ix2 r k))
    (hB : ∀ (q : Fin 1024) (s : Fin 8192), s.val = bj * 1024 + q.val → ∀ k : Fin 512, B (ix2 q k) = X (ix2 s k))
    (y : S1024x1024.Idx) (z : S8192x8192.Idx)
    (h0 : (z 0).val = bi * 1024 + (y 0).val) (h1 : (z 1).val = bj * 1024 + (y 1).val) :
    k0_pay1 (F := Ideal) A B y = Cert.PairDist.dist X z := by
  obtain ⟨p, q, rfl⟩ : ∃ (p q : Fin 1024), y = ix2 p q := ⟨y 0, y 1, eq_ix2 y⟩
  obtain ⟨r, s, rfl⟩ : ∃ (r s : Fin 8192), z = ix2 r s := ⟨z 0, z 1, eq_ix2 z⟩
  rw [Cert.KernelIdeal.BlockValue.tile_apply, Cert.PairDist.dist_apply]
  exact Cert.PairDist.entry_rows X A B p q r s (hA p r h0) (hB q s h1)

/-- What point `t` writes back is its block of the distance matrix of the argument array. -/
theorem flushed_eq (c : Dev nD) (t : Fin cfg0.N) :
    (dats m 0 c).flushed 2 t
      = ((cfg0.win 2).blk t).view.read (Elt Ideal) (Cert.PairDist.dist (n := 8192) (d := 512) (V m c main_arg0)) := by
  show (cfg0.win 2).cut (grid0.coords t) ((dats m 0 c).after 2 t) = _
  rw [after_2]
  unfold tile
  rw [View.canon_unit_zero hz]
  simp only [View.ld_unit_zero (S := S1024x512) hz]
  obtain ⟨e0, e1, e2, e3, e4, e5⟩ := idx_facts t
  funext y
  show k0_pay1 (F := Ideal) (iblk m c 0 t) (iblk m c 1 t) y
    = Cert.PairDist.dist (n := 8192) (d := 512) (V m c main_arg0) (((cfg0.win 2).blk t).view.emb y)
  refine tile_entry (V m c main_arg0) (iblk m c 0 t) (iblk m c 1 t) (win0_2.index t (0 : Fin 2)) (win0_2.index t (1 : Fin 2))
    ?_ ?_ y (((cfg0.win 2).blk t).view.emb y) ?_ ?_
  · intro p r hr k
    show V m c main_arg0 (((cfg0.win 0).blk t).view.emb (ix2 p k)) = V m c main_arg0 (ix2 r k)
    refine congrArg _ ?_
    funext a; apply Fin.ext
    match a with
    | ⟨0, _⟩ => show win0_0.index t (0 : Fin 2) * 1024 + 1 * p.val = r.val; omega
    | ⟨1, _⟩ => show win0_0.index t (1 : Fin 2) * 512 + 1 * k.val = k.val; omega
  · intro q s hs k
    show V m c main_arg0 (((cfg0.win 1).blk t).view.emb (ix2 q k)) = V m c main_arg0 (ix2 s k)
    refine congrArg _ ?_
    funext a; apply Fin.ext
    match a with
    | ⟨0, _⟩ => show win0_1.index t (0 : Fin 2) * 1024 + 1 * q.val = s.val; omega
    | ⟨1, _⟩ => show win0_1.index t (1 : Fin 2) * 512 + 1 * k.val = k.val; omega
  · show win0_2.index t (0 : Fin 2) * 1024 + 1 * (y 0).val = win0_2.index t (0 : Fin 2) * 1024 + (y 0).val
    omega
  · show win0_2.index t (1 : Fin 2) * 1024 + 1 * (y 1).val = win0_2.index t (1 : Fin 2) * 1024 + (y 1).val
    omega

/-- An entry of the result is in point `t`'s tile iff each coordinate is in the tile's range on its axis. -/
theorem mem_blk (t : Fin cfg0.N) (i : S8192x8192.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

/-- The tiles cover the result: the entry `(r, s)` lies in the tile `(r / 1024, s / 1024)`. -/
theorem cover (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1024 ≤ (i 1).val ∧ (i 1).val < win0_2.index t (1 : Fin 2) * 1024 + 1024
    omega

/-- After the run the result array is the distance matrix of the argument array. -/
theorem final (c : Dev nD) :
    (dats m 0 c).arrAt 2 cfg0.N = Cert.PairDist.dist (n := 8192) (d := 512) (m ((c : Thread nD τ).loc main_arg0)) :=
  (dats m 0 c).arrAt_eq_of_cover 2 (Cert.PairDist.dist (n := 8192) (d := 512) (V m c main_arg0))
    (fun t _ => flushed_eq m c t) cover

/-- Every weakly fair execution of the idealized kernel terminates without fault with the result array at the distance
    matrix of the argument array, and the argument array as it began. -/
theorem run : θ_run defs (onTc (τ := τ) (main (F := Ideal))) ⟨m, fun _ => 0, ρ⟩ fun r => ∀ c : Dev nD,
      r.2.mem ((c.tc : Thread nD τ).loc main_v0)
        = Cert.PairDist.dist (n := 8192) (d := 512) (m ((c.tc : Thread nD τ).loc main_arg0))
      ∧ r.2.mem ((c.tc : Thread nD τ).loc main_arg0) = m ((c.tc : Thread nD τ).loc main_arg0) :=
  (θ_run defs _ _).mono (fun r h c => ⟨(h c).1.trans (final m c), (h c).2⟩) (run_named m ρ)

/-- info: 'Cert.KernelIdeal.Whole.run' depends on axioms: [propext, Classical.choice, Quot.sound] -/
#guard_msgs in #print axioms run

end Cert.KernelIdeal.Whole

end
-- ==== Proof.RefValue.lean ====
/-
  The reference computes the distance matrix of its argument.

  Read entry by entry at the pair of coordinates (p, q), the reference's term is
      sqrt (max ((s p + s q) - 2 * g p q) 0),
  where s r = 0 + sum over k of X(r,k) * X(r,k) is the row sum of the squared array, broadcast once down the
  columns (through a column [8192,1]) and once along the rows (through a row [1,8192]), and g p q is the sum
  over k of X(p,k) * Xt(k,q) with Xt the transposed array, Xt(k,q) = X(q,k). So s r is the squared norm of
  row r (the initial value zero of the sum disappears), g p q is the inner product of rows p and q, and the
  entry is the specification's, with the same two constant words.
-/
import proofs.«109813_j15015205667290_1_alg».proof.Proof.Gen.ReferenceIdeal.Read
import proofs.«109813_j15015205667290_1_alg».proof.Proof.Spec

noncomputable section

open scoped BigOperators

namespace Cert.ReferenceIdeal.RefValue

open Cert.ReferenceIdeal Cert.ReferenceIdeal.Read Idealize.ShloMosaic Idealize.ShloMosaic.ValueIdx

/-- The row sum read through the column broadcast at (p, q) runs over row p. -/
theorem idx_col (p q : Fin 8192) (k : Fin 512) :
    idx_main_v1 (idx_main_v4 (idx_main_v6 (ix2 p q))) k = ix2 p k :=
  funext fun a => Fin.ext (by match a with | ⟨0, _⟩ => rfl | ⟨1, _⟩ => rfl)

/-- The row sum read through the row broadcast at (p, q) runs over row q. -/
theorem idx_row (p q : Fin 8192) (k : Fin 512) :
    idx_main_v1 (idx_main_v5 (idx_main_v7 (ix2 p q))) k = ix2 q k :=
  funext fun a => Fin.ext (by match a with | ⟨0, _⟩ => rfl | ⟨1, _⟩ => rfl)

/-- The left factor of the product at (p, q) is X(p, k). -/
theorem idx_lhs (p q : Fin 8192) (k : Fin 512) :
    lidx_main_v3 (ix2 p q) k = ix2 p k :=
  funext fun a => Fin.ext (by match a with | ⟨0, _⟩ => rfl | ⟨1, _⟩ => rfl)

/-- The right factor of the product at (p, q) is the transposed array at (k, q), that is X(q, k). -/
theorem idx_rhs (p q : Fin 8192) (k : Fin 512) :
    idx_main_v2 (ridx_main_v3 (ix2 p q) k) = ix2 q k :=
  funext fun a => Fin.ext (by match a with | ⟨0, _⟩ => rfl | ⟨1, _⟩ => rfl)

/-- The reference's result is the matrix of pairwise distances between the rows of its argument. -/
theorem result_eq (x0 : (⟨Cert.ReferenceIdeal.S8192x512, .f32⟩ : BufTy).Contents (Elt Ideal)) :
    Cert.ReferenceIdeal.Read.val_main_v14 (F := Ideal) x0 = Cert.PairDist.dist x0 := by
  funext i
  obtain ⟨p, q, rfl⟩ : ∃ (p q : Fin 8192), i = ValueIdx.ix2 p q := ⟨i 0, i 1, ValueIdx.eq_ix2 i⟩
  simp only [val_main_v14_apply, val_main_v13_apply, val_main_v12_apply, val_main_cst_1_apply,
    val_main_v11_apply, val_main_v10_apply, val_main_v9_apply, val_main_cst_0_apply, val_main_v8_apply,
    val_main_v7_apply, val_main_v6_apply, val_main_v5_apply, val_main_v4_apply, val_main_v3_apply,
    val_main_v2_apply, val_main_v1_apply, val_main_cst_apply, val_main_v0_apply]
  simp only [idx_col, idx_row, idx_lhs, idx_rhs, Ideal.hostUnary_sqrt_def, Ideal.maximumf_def, Ideal.subf_def,
    Ideal.addf_def, Ideal.mulf_def, Ideal.ofBits_def, Ideal.ofBits_zero_f32, zero_add,
    Cert.PairDist.dist_apply, Cert.PairDist.entry, Cert.PairDist.root, Cert.PairDist.sqn, Cert.PairDist.gram]

end Cert.ReferenceIdeal.RefValue

end
-- ==== Proof.lean ====
/-
  The tiled pairwise-distance kernel computes what the plain reference computes.

  Both programs take one array `X` of 8192 rows of 512 entries and return the 8192 × 8192 matrix whose entry `(r, s)`
  is `√ max ((‖X_r‖² + ‖X_s‖²) − 2 ⟨X_r, X_s⟩, 0)`, the Euclidean distance between rows `r` and `s` by the polarisation
  identity, clamped at zero before the root. The reference forms the row sums of squares, the matrix product of `X`
  with its transpose and the combination on whole arrays. The kernel works tile by tile on an 8 × 8 grid: at the point
  `(i, j)` it takes the 1024 rows of block `i` and the 1024 rows of block `j` of the same array and forms the same
  expression from their squared norms and their product. On the extended reals both are, entry by entry, the same
  expression in the entries of rows `r` and `s` with the same two constants, so no law of arithmetic is needed and
  the inputs' finiteness is never used.

  The three programs run to the end without fault and leave the argument array unchanged: the two kernels because
  each of the 64 grid points only reads its two input blocks (both cut from the one argument array, which the two input
  windows share in halves) and writes its own tile; the reference because its run is a sequence of host operations
  writing fresh buffers. The idealized kernel is the kernel's own text read on the extended reals: there is nothing to
  preserve beyond that.
-/
import proofs.«109813_j15015205667290_1_alg».proof.Defs
import proofs.«109813_j15015205667290_1_alg».proof.Proof.Gen.Kernel
import proofs.«109813_j15015205667290_1_alg».proof.Proof.Gen.KernelIdeal
import proofs.«109813_j15015205667290_1_alg».proof.Proof.Gen.ReferenceIdeal
import proofs.«109813_j15015205667290_1_alg».proof.Proof.Gen.ReferenceIdeal.Run
import proofs.«109813_j15015205667290_1_alg».proof.Proof.Gen.ReferenceIdeal.Read
import proofs.«109813_j15015205667290_1_alg».proof.Proof.Gen.Pre_finite_inputs
import proofs.«109813_j15015205667290_1_alg».proof.Proof.TilesWord
import proofs.«109813_j15015205667290_1_alg».proof.Proof.TilesIdeal
import proofs.«109813_j15015205667290_1_alg».proof.Proof.Whole
import proofs.«109813_j15015205667290_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end, faults nowhere, and leaves its argument array unchanged. -/
theorem frame_word : Cert.frame_Kernel := fun m ρ _ => Cert.Kernel.Tiles.frame m ρ

/-- So does the kernel read on the extended reals. -/
theorem frame_ideal : Cert.frame_KernelIdeal := fun m ρ _ => Cert.KernelIdeal.Tiles.frame m ρ

/-- The reference's run, with its result dropped: it terminates without fault and its argument array is unchanged. -/
theorem frame_ref : Cert.frame_ReferenceIdeal := fun m ρ _ =>
  (θ_run Cert.ReferenceIdeal.defs _ _).mono (fun _ h c => (h c).2) (Cert.ReferenceIdeal.Value.run (F := Ideal) m ρ)

/-- From argument arrays that agree, the kernel's result array and the reference's are both the distance matrix of
    the argument. -/
theorem same_result : Cert.algebraic_KernelIdeal_ReferenceIdeal := by
  intro m ρ m' ρ' _ hagree
  refine ⟨fun c => Cert.PairDist.dist (n := 8192) (d := 512)
      (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_word, frame_ideal, frame_ref, trivial, same_result⟩

end Cert.Proof

end
